-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel

variable [Facts]

def fn {F : FTy → Type} [FloatOps F] (main_arg0 : FVec F S1048576x128 .f32) (main_arg1 : IVec S1048576x128 32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  main_v3
-- ==== Kernel.lean ====
abbrev S1048576x128 : Shape := ⟨2, ![1048576, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S1048576x128, .f32⟩
  | .hbm, ⟨1, _⟩ => ⟨S1048576x128, .i32⟩
  | .hbm, ⟨2, _⟩ => ⟨S1x1, .f32⟩
  | .hbm, ⟨3, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x1, .f32⟩
  | .local _ .vmem, ⟨5, _⟩ => ⟨S1x1, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v33 : BitVec 1 := Scalar.cmpi .eq arg0 c255_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1048576x128.size a
  hwx0_0 : ∀ i : grid0.Coords, EltTy.bits .f32 = 32 ∨ (Rect.block (s := S1048576x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S1048576x128.size a
  hwx0_1 : ∀ i : grid0.Coords, EltTy.bits .i32 = 32 ∨ (Rect.block (s := S1048576x128) S4096x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1048576x128 : Shape := ⟨2, ![1048576, 128]⟩
abbrev S_ : Shape := ⟨0, ![]⟩
abbrev S1048576 : Shape := ⟨1, ![1048576]⟩

abbrev nBuf : Space → Nat
  | .hbm => 27
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576x128, .i32⟩
  | .hbm, ⟨2, _⟩ => ⟨S1048576x128, .f32⟩
  | .hbm, ⟨3, _⟩ => ⟨S1048576x128, .f32⟩
  | .hbm, ⟨4, _⟩ => ⟨S_, .f32⟩
  | .hbm, ⟨5, _⟩ => ⟨S1048576, .f32⟩
  | .hbm, ⟨6, _⟩ => ⟨S1048576, .f32⟩
  | .hbm, ⟨7, _⟩ => ⟨S1048576x128, .f32⟩
  | .hbm, ⟨8, _⟩ => ⟨S_, .f32⟩
  | .hbm, ⟨9, _⟩ => ⟨S1048576, .f32⟩
  | .hbm, ⟨10, _⟩ => ⟨S1048576, .f32⟩
  | .hbm, ⟨11, _⟩ => ⟨S1048576, .f32⟩
  | .hbm, ⟨12, _⟩ => ⟨S1048576, .f32⟩
  | .hbm, ⟨13, _⟩ => ⟨S_, .f32⟩
  | .hbm, ⟨14, _⟩ => ⟨S1048576, .f32⟩
  | .hbm, ⟨15, _⟩ => ⟨S1048576, .f32⟩
  | .hbm, ⟨16, _⟩ => ⟨S1048576, .f32⟩
  | .hbm, ⟨17, _⟩ => ⟨S_, .f32⟩
  | .hbm, ⟨18, _⟩ => ⟨S1048576, .f32⟩
  | .hbm, ⟨19, _⟩ => ⟨S1048576, .f32⟩
  | .hbm, ⟨20, _⟩ => ⟨S1048576, .f32⟩
  | .hbm, ⟨21, _⟩ => ⟨S1048576, .f32⟩
  | .hbm, ⟨22, _⟩ => ⟨S1048576, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  reducesTo_S1048576x128_S1048576_d1 : S1048576x128.ReducesTo [1] S1048576
  h_S_ : 0 < S_.numel
  bcast_S_S1048576 : S_.BroadcastsInDim S1048576 (![] : Fin 0 → Fin S1048576.rank)
  reducesTo_S1048576_S_d0 : S1048576.ReducesTo [0] S_

variable [Facts₀]

class Facts : Prop extends Facts₀ where

variable [Facts]
-- ==== Proof.FocalSpec.lean ====
/-
  The focal loss as one function of the two argument arrays, over the extended reals.

  For a row `r` of the logits `x` and the labels `l` (integers, read exactly): `s r = ∑ₖ x r k · l r k` (the
  logit at the label, for a one-hot row), `z r = ∑ₖ exp (x r k)`, `p r = exp (s r) / z r`, and the row's loss is
  `¼ · (1 - p r)² · (-s r + log (z r))`. The result is the sum of the rows' losses scaled by `2⁻²⁰`, the reciprocal of
  the number of rows. The row functions are stated for any number of rows, so that a block of rows and the whole
  array are read by the same definitions.
-/
import Idealize.ShloMosaic.PureOps.Ideal
import Idealize.ShloMosaic.PureOps.Ideal.Laws
import Idealize.ShloMosaic.Lib.ValueIdx

noncomputable section

namespace Cert.Focal

open Idealize.ShloMosaic Idealize.ShloMosaic.ValueIdx

/-- A row's loss from its label logit `s` and its sum of exponentials `z`: `¼ · (1 - exp s / z)² · (-s + log z)`. -/
def lossOf (s z : EReal) : EReal :=
  Ideal.ofBits .f32 0x3E800000#32
    * ((Ideal.ofBits .f32 0x3F800000#32 - Ideal.div (Ideal.exp s) z) * (Ideal.ofBits .f32 0x3F800000#32 - Ideal.div (Ideal.exp s) z))
    * (-s + Ideal.log z)

variable {R : ℕ}

/-- Row `r`'s logits weighted by its labels, summed along the row. -/
def labelLogit (x : (⟨2, ![R, 128]⟩ : Shape).Idx → EReal) (l : (⟨2, ![R, 128]⟩ : Shape).Idx → BitVec 32) (r : Fin R) : EReal :=
  ∑ k : Fin 128, x (ix2 r k) * FloatOps.sitofp (F := Ideal) .f32 (l (ix2 r k))

/-- The sum of the exponentials of row `r`'s logits. -/
def sumExp (x : (⟨2, ![R, 128]⟩ : Shape).Idx → EReal) (r : Fin R) : EReal :=
  ∑ k : Fin 128, Ideal.exp (x (ix2 r k))

/-- Row `r`'s loss. -/
def rowLoss (x : (⟨2, ![R, 128]⟩ : Shape).Idx → EReal) (l : (⟨2, ![R, 128]⟩ : Shape).Idx → BitVec 32) (r : Fin R) : EReal :=
  lossOf (labelLogit x l r) (sumExp x r)

/-- The sum of all rows' losses. -/
def total (x : (⟨2, ![R, 128]⟩ : Shape).Idx → EReal) (l : (⟨2, ![R, 128]⟩ : Shape).Idx → BitVec 32) : EReal :=
  ∑ r : Fin R, rowLoss x l r

/-- The mean loss over the 1048576 rows: the total scaled by `2⁻²⁰`. -/
def meanLoss (x : (⟨2, ![1048576, 128]⟩ : Shape).Idx → EReal) (l : (⟨2, ![1048576, 128]⟩ : Shape).Idx → BitVec 32) : EReal :=
  total x l * Ideal.ofBits .f32 0x35800000#32

/-! The definitions above, as equations to rewrite by. -/

theorem lossOf_def (s z : EReal) : lossOf s z = Ideal.ofBits .f32 0x3E800000#32
    * ((Ideal.ofBits .f32 0x3F800000#32 - Ideal.div (Ideal.exp s) z) * (Ideal.ofBits .f32 0x3F800000#32 - Ideal.div (Ideal.exp s) z))
    * (-s + Ideal.log z) := by
  unfold lossOf; rfl

theorem labelLogit_def (x : (⟨2, ![R, 128]⟩ : Shape).Idx → EReal) (l : (⟨2, ![R, 128]⟩ : Shape).Idx → BitVec 32) (r : Fin R) :
    labelLogit x l r = ∑ k : Fin 128, x (ix2 r k) * FloatOps.sitofp (F := Ideal) .f32 (l (ix2 r k)) := by
  unfold labelLogit; rfl

theorem sumExp_def (x : (⟨2, ![R, 128]⟩ : Shape).Idx → EReal) (r : Fin R) :
    sumExp x r = ∑ k : Fin 128, Ideal.exp (x (ix2 r k)) := by
  unfold sumExp; rfl

theorem rowLoss_def (x : (⟨2, ![R, 128]⟩ : Shape).Idx → EReal) (l : (⟨2, ![R, 128]⟩ : Shape).Idx → BitVec 32) (r : Fin R) :
    rowLoss x l r = lossOf (labelLogit x l r) (sumExp x r) := by
  unfold rowLoss; rfl

theorem total_def (x : (⟨2, ![R, 128]⟩ : Shape).Idx → EReal) (l : (⟨2, ![R, 128]⟩ : Shape).Idx → BitVec 32) :
    total x l = ∑ r : Fin R, rowLoss x l r := by
  unfold total; rfl

theorem meanLoss_def (x : (⟨2, ![1048576, 128]⟩ : Shape).Idx → EReal) (l : (⟨2, ![1048576, 128]⟩ : Shape).Idx → BitVec 32) :
    meanLoss x l = total x l * Ideal.ofBits .f32 0x35800000#32 := by
  unfold meanLoss; rfl

end Cert.Focal

end
-- ==== Proof.FocalConsts.lean ====
/-
  The two scaling words and the law that joins the two programs: `0x49800000` denotes `2²⁰`, `0x35800000` denotes
  `2⁻²⁰`, and on every extended real, the infinities included, dividing by the first is multiplying by the second.
-/
import Idealize.ShloMosaic.PureOps.Ideal
import Idealize.ShloMosaic.PureOps.Ideal.Laws

noncomputable section

namespace Cert.Focal.Consts

open Idealize.ShloMosaic

/-- The word `0x49800000` denotes `2²⁰ = 1048576`. -/
theorem ofBits_two_pow_20 : Ideal.ofBits .f32 0x49800000#32 = ((1048576 : ℝ) : EReal) := by
  simp [Ideal.ofBits, Ideal.ieee, -EReal.coe_mul]; norm_num

/-- The word `0x35800000` denotes `2⁻²⁰ = 1 / 1048576`. -/
theorem ofBits_two_pow_neg_20 : Ideal.ofBits .f32 0x35800000#32 = ((1 / 1048576 : ℝ) : EReal) := by
  simp [Ideal.ofBits, Ideal.ieee, -EReal.coe_mul]; norm_num

/-- Dividing by `2²⁰` is multiplying by `2⁻²⁰`, for every extended real. -/
theorem div_two_pow_20 (T : EReal) :
    Ideal.div T (Ideal.ofBits .f32 0x49800000#32) = T * Ideal.ofBits .f32 0x35800000#32 := by
  rw [ofBits_two_pow_20, ofBits_two_pow_neg_20, Ideal.div_coe (by norm_num : (1048576 : ℝ) ≠ 0)]

end Cert.Focal.Consts

end
-- ==== Proof.FocalPieces.lean ====
/-
  What one pass of the kernel body leaves behind, as pure functions of what it read.

  The body keeps a one-word accumulator. At the first grid point it stores zero into the accumulator, reads it back and
  stores the accumulator plus the block's total; at every later point it stores the accumulator plus the block's total;
  at the last point it also stores the accumulator scaled by `2⁻²⁰` into the output block. Each store covers the whole
  one-word buffer, so what a buffer holds after the pass is the payload of the last store into it, and a load that
  follows a store reads that store's payload. Stated for any float interpretation.
-/
import proofs.«137575_j64759516889772_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Focal.Pieces

open Cert.KernelIdeal Cert.KernelIdeal.Gen

variable {F : FTy → Type} [FloatOps F]

/-- The offsets of every access of the body are zero. -/
theorem hz : (![0, 0] : Fin 2 → Nat) = fun _ => 0 := funext fun a => by fin_cases a <;> rfl

/-- A middle point leaves in the accumulator the update of what the point before left. -/
theorem sout_B (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S4096x128 .f32) (x1 : Vec F S4096x128 .i32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero hz]
  simp only [View.readAt_eq_ld, h1.read_unread, h2.read_unread, h4.read_unread, View.ld_unit_zero (S := S4096x128) hz, View.ld_unit_zero (S := S1x1) hz]

/-- The first point leaves in the accumulator the update of the zero it has just stored. -/
theorem sout_A (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S4096x128 .f32) (x1 : Vec F S4096x128 .i32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S4096x128) hz]

/-- The last point leaves in the output block the scaling of the accumulator it has just updated. -/
theorem out_C (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S4096x128 .f32) (x1 : Vec F S4096x128 .i32) (xs0 : Vec F S1x1 .f32) :
    out0_C_2 c i a1 h1 a2 h2 a3 h3 a4 h4 hc0 hc1 x0 x1 xs0 = k0_pay3 (k0_pay2 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S4096x128) hz, View.ld_unit_zero (S := S1x1) hz]

/-- The last point leaves in the accumulator the update of what the point before left. -/
theorem sout_C (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S4096x128 .f32) (x1 : Vec F S4096x128 .i32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S4096x128) hz, View.ld_unit_zero (S := S1x1) hz]

end Cert.Focal.Pieces

end
-- ==== Proof.LibLayout.lean ====
/-
  Column forms of three layout operations and a lane sum, read at an index written by coordinates. They complete
  the row forms the library already has, for bodies that keep a reduced axis as a unit axis
  (`sum(…, keepdims=True)`): a column [a,1] re-read as a row [1,a], a vector [a] re-read as a column [a,1], a
  column [a,1] repeated along a new second axis [a,b], and the sum along the second axis of an [a,b] array.
-/
import Idealize.ShloMosaic.Lib.Pipeline.Value
import Idealize.ShloMosaic.Lib.ValueIdx
import Idealize.ShloMosaic.PureOps.Ideal.Laws

namespace Cert.LibLayout

open Idealize.ShloMosaic Idealize.ShloMosaic.ValueIdx

variable {α : Type}

/-- An `[a, 1]` column cast to a `[1, a]` row reads, at `(u, i)`, the column at `(i, 0)`: both have row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals the sum of an `[a, b]` array along its second axis, read at row `p`, is the sum over the
    `b` entries of that row. -/
theorem lane_sum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  show ∑ l : Fin b, src (h.lift (ix1 p) l) = _
  refine Finset.sum_congr rfl fun l _ => congrArg src ?_
  funext d
  apply Fin.ext
  match d with
  | ⟨0, _⟩ => rfl
  | ⟨1, _⟩ => rfl

end Cert.LibLayout
-- ==== Proof.LibColSum.lean ====
/-
  The sum of an `[a, 1]` column along its first axis, at the extended reals, read at the one index of the `[1]` result:
  the sum over the `a` entries of the column. The companion, for the other axis, of the sum of an `[a, b]` array along
  its second axis.
-/
import Idealize.ShloMosaic.Lib.ValueIdx
import Idealize.ShloMosaic.PureOps.Ideal.Laws

namespace Cert.LibColSum

open Idealize.ShloMosaic Idealize.ShloMosaic.ValueIdx

/-- At the extended reals the sum of an `[a, 1]` column along its first axis is the sum of its `a` entries. -/
theorem col_sum_apply {a : ℕ} (src : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  show ∑ r : Fin a, src (h.lift (ix1 u) r) = _
  refine Finset.sum_congr rfl fun r _ => congrArg src ?_
  funext d
  apply Fin.ext
  match d with
  | ⟨0, _⟩ => rfl
  | ⟨1, _⟩ =>
    show u.val = 0
    omega

end Cert.LibColSum
-- ==== Proof.FocalPayload.lean ====
/-
  The body's three payloads over the extended reals, read at the one index of a `[1, 1]` buffer.

  The zeroing payload is `0`. The scaling payload is its operand times `2⁻²⁰`. The update payload is the accumulator
  plus the block's total: for each of the block's 4096 rows the two lane sums `s = ∑ₖ x · l` and `z = ∑ₖ exp x` are kept
  as `[4096, 1]` columns, the row's loss is formed entry by entry — the body spells `-s` as `0 - s` and `s` as
  `0 - (0 - s)`, which are the same extended reals — and the column of losses is summed along its first axis.
-/
import proofs.«137575_j64759516889772_1_alg».proof.Proof.Gen.KernelIdeal.Skeleton
import proofs.«137575_j64759516889772_1_alg».proof.Proof.FocalSpec
import proofs.«137575_j64759516889772_1_alg».proof.Proof.LibLayout
import proofs.«137575_j64759516889772_1_alg».proof.Proof.LibColSum
import Idealize.ShloMosaic.Lib.Pipeline.Value
import Idealize.ShloMosaic.Lib.ValueIdx
import Idealize.ShloMosaic.PureOps.Ideal.Laws

noncomputable section

namespace Cert.Focal.Payload

open Idealize.ShloMosaic Idealize.ShloMosaic.ValueIdx
open Cert.KernelIdeal Cert.KernelIdeal.Gen Cert.Focal Cert.LibLayout Cert.LibColSum

/-- The zeroing payload is zero. -/
theorem pay1_apply (y : S1x1.Idx) : k0_pay1 (F := Ideal) y = 0 := by
  unfold k0_pay1
  rw [shapeCast_self]
  exact Ideal.ofBits_zero_f32

/-- The scaling payload multiplies by the word `0x35800000`, which denotes `2⁻²⁰`. -/
theorem pay3_apply (v : Vec Ideal S1x1 .f32) (y : S1x1.Idx) :
    k0_pay3 (F := Ideal) v y = v y * Ideal.ofBits .f32 0x35800000#32 := rfl

/-- The column of row losses from the column of label logits `s` and the column of sums of exponentials `z`, entry by
    entry: `0 - (0 - s) = s` and `0 - s = -s` on the extended reals. -/
theorem lossCol_apply (s z : FVec Ideal S4096x1 .f32) (i : S4096x1.Idx) :
    mulf (mulf (broadcast S4096x1 (Scalar.ofBits (F := Ideal) .f32 0x3E800000#32))
        (mulf (subf (broadcast S4096x1 (Scalar.ofBits (F := Ideal) .f32 0x3F800000#32))
            (divf (exp (subf (broadcast S4096x1 (Scalar.ofBits (F := Ideal) .f32 0x00000000#32))
              (subf (broadcast S4096x1 (Scalar.ofBits (F := Ideal) .f32 0x00000000#32)) s))) z))
          (subf (broadcast S4096x1 (Scalar.ofBits (F := Ideal) .f32 0x3F800000#32))
            (divf (exp (subf (broadcast S4096x1 (Scalar.ofBits (F := Ideal) .f32 0x00000000#32))
              (subf (broadcast S4096x1 (Scalar.ofBits (F := Ideal) .f32 0x00000000#32)) s))) z))))
      (addf (subf (broadcast S4096x1 (Scalar.ofBits (F := Ideal) .f32 0x00000000#32)) s) (log z)) i
    = lossOf (s i) (z i) := by
  show Ideal.ofBits .f32 0x3E800000#32
      * ((Ideal.ofBits .f32 0x3F800000#32 - Ideal.div (Ideal.exp (Ideal.ofBits .f32 0x00000000#32 - (Ideal.ofBits .f32 0x00000000#32 - s i))) (z i))
        * (Ideal.ofBits .f32 0x3F800000#32 - Ideal.div (Ideal.exp (Ideal.ofBits .f32 0x00000000#32 - (Ideal.ofBits .f32 0x00000000#32 - s i))) (z i)))
      * ((Ideal.ofBits .f32 0x00000000#32 - s i) + Ideal.log (z i)) = _
  rw [Ideal.ofBits_zero_f32]
  simp only [zero_sub, neg_neg]
  rfl

/-- The update payload adds the block's total of row losses to the accumulator. -/
theorem pay2_apply (v3 : Vec Ideal S4096x128 .f32) (v4 : Vec Ideal S4096x128 .i32) (v26 : Vec Ideal S1x1 .f32) (y : S1x1.Idx) :
    k0_pay2 (F := Ideal) v3 v4 v26 y = v26 y + total v3 v4 := by
  obtain ⟨p, q, rfl⟩ : ∃ (p : Fin 1) (q : Fin 1), y = ix2 p q := ⟨y 0, y 1, eq_ix2 y⟩
  unfold k0_pay2
  refine (congrFun (shapeCast_self _ _) _).trans ?_
  refine congrArg (v26 (ix2 p q) + ·) ((shapeCast_a_a1_apply (a := 1) _ _ p q).trans ((col_sum_apply _ _ _ _ _ p).trans ?_))
  refine Finset.sum_congr rfl fun r _ => ?_
  refine (lossCol_apply _ _ (ix2 r (0 : Fin 1))).trans ?_
  exact congrArg₂ lossOf
    ((shapeCast_a_a1_apply _ _ r 0).trans (lane_sum_apply _ _ _ _ _ r))
    ((shapeCast_a_a1_apply _ _ r 0).trans (lane_sum_apply _ _ _ _ _ r))

end Cert.Focal.Payload

end
-- ==== Proof.FocalAccum.lean ====
/-
  The accumulator across the grid, over the extended reals.

  After grid point `n` the accumulator holds `∑_{t ≤ n} B t`, where `B t` is the total of the row losses of the block of
  4096 rows that point `t` reads: zero plus `B 0` after the first point, and one more block total after each later
  point — an induction on the point. At the last point the output block receives that sum over all 256 points,
  scaled by `2⁻²⁰`.
-/
import proofs.«137575_j64759516889772_1_alg».proof.Proof.Gen.KernelIdeal.Frame
import proofs.«137575_j64759516889772_1_alg».proof.Proof.FocalPieces
import proofs.«137575_j64759516889772_1_alg».proof.Proof.FocalPayload

noncomputable section

open Idealize.ShloMosaic Idealize.ShloMosaic.TcCoe Idealize.SL.Sem
open Idealize.ShloMosaic.Pipeline (Dat)

namespace Cert.Focal.Accum

open Cert.KernelIdeal Cert.KernelIdeal.Gen Cert.Focal Cert.Focal.Pieces Cert.Focal.Payload

/-- At the first grid point the accumulator is zeroed and the block's total added: it ends at the block's total. -/
theorem scratch_A (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec Ideal S4096x128 .f32) (x1 : Vec Ideal S4096x128 .i32) (y : S1x1.Idx) :
    sout0_A_0 (F := Ideal) c i a1 h1 a2 h2 a3 h3 a4 h4 hc0 hc1 x0 x1 y = total x0 x1 := by
  rw [sout_A, pay2_apply, pay1_apply, zero_add]

/-- At a middle grid point the block's total is added to what the point before left. -/
theorem scratch_B (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec Ideal S4096x128 .f32) (x1 : Vec Ideal S4096x128 .i32) (xs0 : Vec Ideal S1x1 .f32) (y : S1x1.Idx) :
    sout0_B_0 (F := Ideal) c i a1 h1 a2 h2 a3 h3 a4 h4 hc0 hc1 x0 x1 xs0 y = xs0 y + total x0 x1 := by
  rw [sout_B, pay2_apply]

/-- At the last grid point likewise; -/
theorem scratch_C (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec Ideal S4096x128 .f32) (x1 : Vec Ideal S4096x128 .i32) (xs0 : Vec Ideal S1x1 .f32) (y : S1x1.Idx) :
    sout0_C_0 (F := Ideal) c i a1 h1 a2 h2 a3 h3 a4 h4 hc0 hc1 x0 x1 xs0 y = xs0 y + total x0 x1 := by
  rw [sout_C, pay2_apply]

/-- and the output block is that sum scaled by `2⁻²⁰`. -/
theorem result_C (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec Ideal S4096x128 .f32) (x1 : Vec Ideal S4096x128 .i32) (xs0 : Vec Ideal S1x1 .f32) (y : S1x1.Idx) :
    out0_C_2 (F := Ideal) c i a1 h1 a2 h2 a3 h3 a4 h4 hc0 hc1 x0 x1 xs0 y
      = (xs0 y + total x0 x1) * Ideal.ofBits .f32 0x35800000#32 := by
  rw [out_C, pay3_apply, pay2_apply]

variable (m : (ℓ : Loc nD τ sig) → Buf (Elt Ideal) ℓ)

/-- The total of the rows' losses over the block of rows grid point `t` reads (zero past the grid). -/
def blockTotal (c : Dev nD) (t : ℕ) : EReal :=
  if h : t < cfg0.N then total (iblk m c 0 ⟨t, h⟩ : Vec Ideal S4096x128 .f32) (iblk m c 1 ⟨t, h⟩ : Vec Ideal S4096x128 .i32) else 0

/-- After grid point `n` the accumulator holds the sum of the block totals of the points up to `n`: by induction on
    the point. -/
theorem scratch_eq (c : Dev nD) : ∀ (n : ℕ) (h : n < cfg0.N) (y : S1x1.Idx),
    (outsAt0 m c n h).2 y = ∑ t ∈ Finset.range (n + 1), blockTotal m c t
  | 0, h, y => by
    rw [outsAt0_A m c ⟨0, h⟩ rfl (by dsimp only; omega)]
    refine (scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) ((hcond0_0 ⟨0, h⟩).mpr rfl) (fun hh => absurd ((hcond0_1 ⟨0, h⟩).mp hh) (by dsimp only; omega))
      (iblk m c 0 ⟨0, h⟩) (iblk m c 1 ⟨0, h⟩) y).trans ?_
    rw [Finset.sum_range_one]
    unfold blockTotal
    rw [dif_pos h]
  | n + 1, h, y => by
    have hN : cfg0.N = 256 := N_0
    have h0 : ¬(⟨n + 1, h⟩ : Fin cfg0.N).val % 256 = 0 := by dsimp only; omega
    have hb : blockTotal m c (n + 1) = total (iblk m c 0 ⟨n + 1, h⟩ : Vec Ideal S4096x128 .f32) (iblk m c 1 ⟨n + 1, h⟩ : Vec Ideal S4096x128 .i32) := by
      unfold blockTotal
      rw [dif_pos h]
    rw [Finset.sum_range_succ _ (n + 1), hb]
    by_cases h1 : (⟨n + 1, h⟩ : Fin cfg0.N).val % 256 = 255
    · rw [outsAt0_C m c ⟨n + 1, h⟩ h0 h1]
      refine (scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        scM0_0 (Memref.isWhole_whole _) (fun hh => h0 ((hcond0_0 ⟨n + 1, h⟩).mp hh)) ((hcond0_1 ⟨n + 1, h⟩).mpr h1)
        (iblk m c 0 ⟨n + 1, h⟩) (iblk m c 1 ⟨n + 1, h⟩) (outsAt0 m c n (Nat.lt_of_succ_lt h)).2 y).trans ?_
      exact congrArg (· + _) (scratch_eq c n (Nat.lt_of_succ_lt h) y)
    · rw [outsAt0_B m c ⟨n + 1, h⟩ h0 h1]
      refine (scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        scM0_0 (Memref.isWhole_whole _) (fun hh => h0 ((hcond0_0 ⟨n + 1, h⟩).mp hh)) (fun hh => h1 ((hcond0_1 ⟨n + 1, h⟩).mp hh))
        (iblk m c 0 ⟨n + 1, h⟩) (iblk m c 1 ⟨n + 1, h⟩) (outsAt0 m c n (Nat.lt_of_succ_lt h)).2 y).trans ?_
      exact congrArg (· + _) (scratch_eq c n (Nat.lt_of_succ_lt h) y)

/-- At the last grid point the output block holds the sum of all 256 block totals scaled by `2⁻²⁰`. -/
theorem out_last (c : Dev nD) (t : Fin cfg0.N) (ht : t.val % 256 = 255) (y : S1x1.Idx) :
    (outsAt0 m c t.val t.isLt).1 y = (∑ s ∈ Finset.range 256, blockTotal m c s) * Ideal.ofBits .f32 0x35800000#32 := by
  have hN : cfg0.N = 256 := N_0
  have hv : t.val = 254 + 1 := by have := t.isLt; omega
  obtain ⟨n, h⟩ := t
  dsimp only at hv ht
  subst hv
  rw [outsAt0_C m c ⟨254 + 1, h⟩ (by dsimp only; omega) ht]
  refine (result_C c (grid0.coords ⟨254 + 1, h⟩) (ms0_0 ⟨254 + 1, h⟩) (hs0_0 ⟨254 + 1, h⟩) (ms0_1 ⟨254 + 1, h⟩) (hs0_1 ⟨254 + 1, h⟩) (ms0_2 ⟨254 + 1, h⟩) (hs0_2 ⟨254 + 1, h⟩)
    scM0_0 (Memref.isWhole_whole _) (fun hh => absurd ((hcond0_0 ⟨254 + 1, h⟩).mp hh) (by dsimp only; omega)) ((hcond0_1 ⟨254 + 1, h⟩).mpr ht)
    (iblk m c 0 ⟨254 + 1, h⟩) (iblk m c 1 ⟨254 + 1, h⟩) (outsAt0 m c 254 (Nat.lt_of_succ_lt h)).2 y).trans ?_
  refine congrArg (· * _) ?_
  rw [Finset.sum_range_succ _ 255]
  refine congrArg₂ (· + ·) (scratch_eq m c 254 (Nat.lt_of_succ_lt h) y) ?_
  unfold blockTotal
  rw [dif_pos h]

end Cert.Focal.Accum

end
-- ==== Proof.LibBlockSum.lean ====
/-
  Finite sums over consecutive blocks, in any commutative additive monoid (used at the extended reals): a sum over
  `N` consecutive blocks of `B` terms is the sum over all `N * B` terms; a tail of zero terms drops; a sum over
  `a + b + c` terms splits into its three consecutive pieces. Stated over `Finset.range` and over `Fin`.
-/
import Mathlib.Algebra.BigOperators.Fin
import Mathlib.Algebra.BigOperators.Intervals

namespace Cert.LibBlockSum

open Finset

variable {M : Type*} [AddCommMonoid M]

/-- `N` consecutive blocks of `B` terms: the double sum over (block, position in the block) is the flat sum. -/
theorem sum_blocks_range (N B : ℕ) (f : ℕ → M) :
    ∑ t ∈ range N, ∑ j ∈ range B, f (B * t + j) = ∑ q ∈ range (N * B), f q := by
  induction N with
  | zero => simp
  | succ n ih =>
    rw [Finset.sum_range_succ, ih, Nat.succ_mul, Finset.sum_range_add, Nat.mul_comm B n]

/-- The same over `Fin`. -/
theorem sum_blocks (N B : ℕ) (f : ℕ → M) :
    ∑ t : Fin N, ∑ j : Fin B, f (B * t.val + j.val) = ∑ q : Fin (N * B), f q.val := by
  have h1 : ∀ t : ℕ, ∑ j : Fin B, f (B * t + j.val) = ∑ j ∈ range B, f (B * t + j) :=
    fun t => Fin.sum_univ_eq_sum_range (fun j => f (B * t + j)) B
  simp only [h1]
  rw [Fin.sum_univ_eq_sum_range (fun t => ∑ j ∈ range B, f (B * t + j)) N, Fin.sum_univ_eq_sum_range f (N * B)]
  exact sum_blocks_range N B f

/-- A tail of zero terms drops. -/
theorem sum_range_pad (P Q : ℕ) (h : P ≤ Q) (f : ℕ → M) (hz : ∀ q, P ≤ q → q < Q → f q = 0) :
    ∑ q ∈ range Q, f q = ∑ q ∈ range P, f q := by
  obtain ⟨d, rfl⟩ := Nat.exists_eq_add_of_le h
  have hz' : ∑ x ∈ range d, f (P + x) = 0 :=
    Finset.sum_eq_zero fun x hx => hz _ (Nat.le_add_right _ _) (by have := Finset.mem_range.mp hx; omega)
  rw [Finset.sum_range_add, hz', add_zero]

/-- The same over `Fin`. -/
theorem sum_pad (P Q : ℕ) (h : P ≤ Q) (f : ℕ → M) (hz : ∀ q, P ≤ q → q < Q → f q = 0) :
    ∑ q : Fin Q, f q.val = ∑ q : Fin P, f q.val := by
  rw [Fin.sum_univ_eq_sum_range f Q, Fin.sum_univ_eq_sum_range f P]
  exact sum_range_pad P Q h f hz

/-- A sum over `a + b + c` terms, split into its three consecutive pieces. -/
theorem sum_three (a b c : ℕ) (f : ℕ → M) :
    ∑ q : Fin (a + b + c), f q.val = ∑ q : Fin a, f q.val + ∑ q : Fin b, f (a + q.val) + ∑ q : Fin c, f (a + b + q.val) := by
  rw [Fin.sum_univ_eq_sum_range f (a + b + c), Finset.sum_range_add, Finset.sum_range_add,
    Fin.sum_univ_eq_sum_range f a, Fin.sum_univ_eq_sum_range (fun q => f (a + q)) b,
    Fin.sum_univ_eq_sum_range (fun q => f (a + b + q)) c]

end Cert.LibBlockSum
-- ==== Proof.FocalBlocks.lean ====
/-
  The 256 block totals are the total over all rows.

  Grid point `t`'s block of either argument is rows `4096 t … 4096 t + 4095`, all 128 lanes, of the array; so row `r` of
  the block has the loss of row `4096 t + r` of the array, the block's total is `∑_{j < 4096} loss (4096 t + j)`, and the
  256 consecutive blocks add up to the flat sum over the `256 · 4096 = 1048576` rows. Addition of extended reals is
  commutative and associative, so the regrouping needs no finiteness.
-/
import proofs.«137575_j64759516889772_1_alg».proof.Proof.Gen.KernelIdeal.Frame
import proofs.«137575_j64759516889772_1_alg».proof.Proof.FocalAccum
import proofs.«137575_j64759516889772_1_alg».proof.Proof.LibBlockSum

noncomputable section

open Idealize.ShloMosaic Idealize.ShloMosaic.TcCoe Idealize.SL.Sem Idealize.ShloMosaic.ValueIdx
open Idealize.ShloMosaic.Pipeline (Dat)

namespace Cert.Focal.Blocks

open Cert.KernelIdeal Cert.KernelIdeal.Gen Cert.Focal Cert.Focal.Accum

variable (m : (ℓ : Loc nD τ sig) → Buf (Elt Ideal) ℓ)

/-- The logits as the kernel's first argument holds them, and the labels as its second. -/
abbrev logits (c : Dev nD) : (⟨2, ![1048576, 128]⟩ : Shape).Idx → EReal := m ((c.tc : Thread nD τ).loc main_arg0)
abbrev labels (c : Dev nD) : (⟨2, ![1048576, 128]⟩ : Shape).Idx → BitVec 32 := m ((c.tc : Thread nD τ).loc main_arg1)

/-- Grid point `t`'s block of either argument starts at row block `t`, lane block `0`. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row `r` of grid point `t`'s block is row `4096 t + r` of the array. -/
def rowOf (t : Fin cfg0.N) (r : Fin 4096) : Fin 1048576 :=
  ⟨4096 * t.val + r.val, by have := t.isLt; have hN : cfg0.N = 256 := N_0; have := r.isLt; omega⟩

/-- The logits' block at `(r, k)` is the array at `(4096 t + r, k)`; -/
theorem iblk0_apply (c : Dev nD) (t : Fin cfg0.N) (r : Fin 4096) (k : Fin 128) :
    (iblk m c 0 t : Vec Ideal S4096x128 .f32) (ix2 r k) = logits m c (ix2 (rowOf t r) k) := by
  unfold iblk
  rw [View.read_apply]
  show V m c main_arg0 _ = m (c.tc.loc main_arg0) _
  rw [V_main_arg0]
  congr 1
  funext a
  apply Fin.ext
  match a with
  | ⟨0, _⟩ => show win0_0.index t 0 * 4096 + 1 * r.val = 4096 * t.val + r.val; rw [(idx0 t).1]; omega
  | ⟨1, _⟩ => show win0_0.index t 1 * 128 + 1 * k.val = k.val; rw [(idx0 t).2]; omega

/-- and so is the labels'. -/
theorem iblk1_apply (c : Dev nD) (t : Fin cfg0.N) (r : Fin 4096) (k : Fin 128) :
    (iblk m c 1 t : Vec Ideal S4096x128 .i32) (ix2 r k) = labels m c (ix2 (rowOf t r) k) := by
  unfold iblk
  rw [View.read_apply]
  show V m c main_arg1 _ = m (c.tc.loc main_arg1) _
  rw [V_main_arg1]
  congr 1
  funext a
  apply Fin.ext
  match a with
  | ⟨0, _⟩ => show win0_1.index t 0 * 4096 + 1 * r.val = 4096 * t.val + r.val; rw [(idx1 t).1]; omega
  | ⟨1, _⟩ => show win0_1.index t 1 * 128 + 1 * k.val = k.val; rw [(idx1 t).2]; omega

/-- So a row's loss read in the block is the row's loss read in the array. -/
theorem rowLoss_block (c : Dev nD) (t : Fin cfg0.N) (r : Fin 4096) :
    rowLoss (iblk m c 0 t : Vec Ideal S4096x128 .f32) (iblk m c 1 t : Vec Ideal S4096x128 .i32) r
      = rowLoss (logits m c) (labels m c) (rowOf t r) := by
  unfold rowLoss labelLogit sumExp
  refine congrArg₂ lossOf (Finset.sum_congr rfl fun k _ => ?_) (Finset.sum_congr rfl fun k _ => ?_)
  · rw [iblk0_apply, iblk1_apply]
  · rw [iblk0_apply]

/-- A row's loss by the row's number, zero past the last row. -/
def lossAt (c : Dev nD) (q : ℕ) : EReal :=
  if h : q < 1048576 then rowLoss (logits m c) (labels m c) ⟨q, h⟩ else 0

/-- A block's total is the sum of the losses of its 4096 consecutive rows. -/
theorem blockTotal_eq (c : Dev nD) (t : ℕ) (ht : t < 256) :
    blockTotal m c t = ∑ j ∈ Finset.range 4096, lossAt m c (4096 * t + j) := by
  have hN : cfg0.N = 256 := N_0
  have h : t < cfg0.N := by omega
  unfold blockTotal
  rw [dif_pos h]
  unfold total
  rw [← Fin.sum_univ_eq_sum_range (fun j => lossAt m c (4096 * t + j)) 4096]
  refine Finset.sum_congr rfl fun r _ => ?_
  rw [rowLoss_block]
  unfold lossAt
  rw [dif_pos (by have := r.isLt; omega)]
  rfl

/-- The 256 block totals add up to the total over all 1048576 rows: a sum over consecutive blocks is the flat sum. -/
theorem sum_blockTotal (c : Dev nD) :
    ∑ s ∈ Finset.range 256, blockTotal m c s = total (logits m c) (labels m c) := by
  rw [Finset.sum_congr rfl fun s hs => blockTotal_eq m c s (Finset.mem_range.mp hs)]
  rw [Cert.LibBlockSum.sum_blocks_range 256 4096 (lossAt m c)]
  rw [show 256 * 4096 = 1048576 from rfl]
  rw [← Fin.sum_univ_eq_sum_range (lossAt m c) 1048576]
  unfold total
  refine Finset.sum_congr rfl fun q _ => ?_
  unfold lossAt
  rw [dif_pos q.isLt]

/-- So at the last grid point the output block holds the mean loss of the whole array. -/
theorem out_mean (c : Dev nD) (t : Fin cfg0.N) (ht : t.val % 256 = 255) (y : S1x1.Idx) :
    (outsAt0 m c t.val t.isLt).1 y = meanLoss (logits m c) (labels m c) := by
  rw [out_last m c t ht y, sum_blockTotal]
  unfold meanLoss
  exact rfl

end Cert.Focal.Blocks

end
-- ==== Proof.FocalResult.lean ====
/-
  The kernel's result.

  The output window is one `[1, 1]` block that never moves and is written back once, after the last grid point; what
  is written back is the mean loss, the block is the whole `[1, 1]` array, so the array ends holding the mean loss, and
  the program's scalar result is that array re-read as a scalar. The steps that only move a value between buffers are
  stated for an arbitrary extended real `v` in place of the mean loss.
-/
import proofs.«137575_j64759516889772_1_alg».proof.Proof.Gen.KernelIdeal.Frame
import proofs.«137575_j64759516889772_1_alg».proof.Proof.FocalBlocks
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.Focal.Result

open Cert.KernelIdeal Cert.KernelIdeal.Gen Cert.Focal Cert.Focal.Accum Cert.Focal.Blocks

variable (m : (ℓ : Loc nD τ sig) → Buf (Elt Ideal) ℓ) (ρ : Dev nD → PrngReg)

/-- A `[1, 1]` array holding `v` at its one index. -/
abbrev const11 (c : Dev nD) (v : EReal) : Buf (Elt Ideal) ((c : Thread nD τ).loc main_v0) := fun _ => v

/-- The last grid point. -/
def tLast : Fin cfg0.N := ⟨255, by have : cfg0.N = 256 := N_0; omega⟩

/-- The output's block never moves: it is block `(0, 0)` at every grid point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The one write-back, at the last grid point, writes what the output block holds there. -/
theorem flushed_eq (c : Dev nD) (v : EReal) (hv : ∀ (t : Fin cfg0.N), t.val % 256 = 255 → ∀ y : S1x1.Idx, (outsAt0 m c t.val t.isLt).1 y = v)
    (t : Fin cfg0.N) (hf : (cfg0.win 2).flush t = true) :
    (dats m 0 c).flushed 2 t = ((cfg0.win 2).blk t).view.read (Elt Ideal) (const11 c v) := by
  have h255 : t.val % 256 = 255 := (flush0_2 t).mp hf
  show (cfg0.win 2).cut (grid0.coords t) ((dats m 0 c).after 2 t) = _
  rw [after0_2]
  funext y
  rw [View.read_apply]
  exact hv t h255 _

/-- So the region's array ends holding it: the last point's block is the whole array. -/
theorem final_const (c : Dev nD) (v : EReal) (hv : ∀ (t : Fin cfg0.N), t.val % 256 = 255 → ∀ y : S1x1.Idx, (outsAt0 m c t.val t.isLt).1 y = v) :
    (dats m 0 c).arrAt 2 cfg0.N = const11 c v :=
  (dats m 0 c).arrAt_eq_of_cover 2 (const11 c v) (flushed_eq m c v hv) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * S1x1.size 0 ≤ (i 0 : Nat) ∧ (i 0 : Nat) < win0_2.index tLast 0 * S1x1.size 0 + S1x1.size 0
        rw [(idx2 tLast).1]
        show 0 * 1 ≤ (i 0 : Nat) ∧ (i 0 : Nat) < 0 * 1 + 1
        omega
      | ⟨1, _⟩ =>
        show win0_2.index tLast 1 * S1x1.size 1 ≤ (i 1 : Nat) ∧ (i 1 : Nat) < win0_2.index tLast 1 * S1x1.size 1 + S1x1.size 1
        rw [(idx2 tLast).2]
        show 0 * 1 ≤ (i 1 : Nat) ∧ (i 1 : Nat) < 0 * 1 + 1
        omega⟩

/-- The program's result is the region's array re-read as a scalar. -/
theorem tail_const (c : Dev nD) (v : EReal) (hfin : (dats m 0 c).arrAt 2 cfg0.N = const11 c v) :
    Pipeline.afterTail₀ cfgs (dats m) 0 (V0 m) [hostOps1] c main_v1 = fun _ => v := by
  unfold Pipeline.afterTail₀
  show StableHlo.after hostOps1 _ (Proc.devRef .tc main_v1) = _
  after_results
  funext i
  have e : Pipeline.withArrays (cfgs 0).spec c (V0 m c) (fun w => (dats m 0 c).arrAt w (cfgs 0).N)
      (Proc.tc.devRef main_v0) = const11 c v :=
    (Pipeline.withArrays_arr spec0 launch0.win.arr_inj c _ _ 2).trans hfin
  rw [e]
  rfl

/-- The kernel's run, read: its scalar result is the mean loss of its argument arrays, which end unchanged. -/
theorem run : θ_run defs (onTc (τ := τ) (main (F := Ideal))) ⟨m, fun _ => 0, ρ⟩ fun r => ∀ c : Dev nD,
      r.2.mem ((c.tc : Thread nD τ).loc main_v1) = (fun _ => meanLoss (logits m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v1 (Pipeline.mem_restRefs_of main_v1 rfl (by decide))).trans
        (tail_const m c _ (final_const m c _ (fun t ht y => out_mean m c t ht y))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Focal.Result

end
-- ==== Proof.LibSumIdx1.lean ====
/-
  A sum over the indices of a rank-1 array is the sum over the one coordinate.
-/
import Idealize.ShloMosaic.Lib.ValueIdx

namespace Cert.LibSumIdx1

open Idealize.ShloMosaic Idealize.ShloMosaic.ValueIdx

/-- The indices of an `[n]` array are its `n` coordinates. -/
def idxEquiv1 {n : ℕ} : (⟨1, ![n]⟩ : Shape).Idx ≃ Fin n where
  toFun j := j 0
  invFun a := ix1 a
  left_inv j := (eq_ix1 j).symm
  right_inv _ := rfl

/-- A sum over the indices of an `[n]` array, as a sum over `Fin n`. -/
theorem sum_idx1 {M : Type*} [AddCommMonoid M] {n : ℕ} (f : (⟨1, ![n]⟩ : Shape).Idx → M) :
    ∑ j, f j = ∑ a : Fin n, f (ix1 a) :=
  Fintype.sum_equiv idxEquiv1 f (fun a => f (ix1 a)) fun j => congrArg f (eq_ix1 j)

end Cert.LibSumIdx1
-- ==== Proof.FocalRef.lean ====
/-
  The reference over the extended reals, read at an index.

  Row `r`'s label logit is the initial value `0` plus the row's sum of `x · l`, its sum of exponentials likewise; the row's
  loss is formed from them with `s` spelled `-(-s)`; the result is `0` plus the sum of all rows' losses, divided by the
  word `0x49800000`, which denotes `2²⁰`.
-/
import proofs.«137575_j64759516889772_1_alg».proof.Proof.Gen.ReferenceIdeal.Read
import proofs.«137575_j64759516889772_1_alg».proof.Proof.FocalSpec
import proofs.«137575_j64759516889772_1_alg».proof.Proof.LibSumIdx1
import Idealize.ShloMosaic.Lib.ValueIdx
import Idealize.ShloMosaic.PureOps.Ideal.Laws

noncomputable section

namespace Cert.Focal.Ref

open Idealize.ShloMosaic Idealize.ShloMosaic.ValueIdx
open Cert.ReferenceIdeal Cert.ReferenceIdeal.Gen Cert.ReferenceIdeal.Read Cert.Focal Cert.LibSumIdx1

/-- The reference's label logit of row `r`: the initial value `0` plus the row's sum. -/
theorem logit_eq (x0 : (⟨S1048576x128, .f32⟩ : BufTy).Contents (Elt Ideal)) (x1 : (⟨S1048576x128, .i32⟩ : BufTy).Contents (Elt Ideal))
    (r : Fin 1048576) : val_main_v2 (F := Ideal) x0 x1 (ix1 r) = labelLogit x0 x1 r := by
  have e2 : ∀ k, idx_main_v2 (ix1 r) k = ix2 r k := fun k =>
    funext fun a => Fin.ext (by match a with | ⟨0, _⟩ => rfl | ⟨1, _⟩ => rfl)
  rw [val_main_v2_apply, val_main_cst_apply, labelLogit_def]
  show Ideal.ofBits .f32 0x00000000#32 + _ = _
  rw [Ideal.ofBits_zero_f32, zero_add]
  refine Finset.sum_congr rfl fun k _ => ?_
  rw [e2 k]
  rfl

/-- The reference's sum of exponentials of row `r`. -/
theorem sumExp_eq (x0 : (⟨S1048576x128, .f32⟩ : BufTy).Contents (Elt Ideal)) (r : Fin 1048576) :
    val_main_v5 (F := Ideal) x0 (ix1 r) = sumExp x0 r := by
  have e5 : ∀ k, idx_main_v5 (ix1 r) k = ix2 r k := fun k =>
    funext fun a => Fin.ext (by match a with | ⟨0, _⟩ => rfl | ⟨1, _⟩ => rfl)
  rw [val_main_v5_apply, val_main_cst_0_apply, sumExp_def]
  show Ideal.ofBits .f32 0x00000000#32 + _ = _
  rw [Ideal.ofBits_zero_f32, zero_add]
  refine Finset.sum_congr rfl fun k _ => ?_
  rw [e5 k]
  rfl

/-- The reference's column of row losses at row `r` is that row's loss: `-(-s) = s`. -/
theorem row_eq (x0 : (⟨S1048576x128, .f32⟩ : BufTy).Contents (Elt Ideal)) (x1 : (⟨S1048576x128, .i32⟩ : BufTy).Contents (Elt Ideal))
    (r : Fin 1048576) : val_main_v16 (F := Ideal) x0 x1 (ix1 r) = rowLoss x0 x1 r := by
  rw [val_main_v16_apply, val_main_v13_apply, val_main_v15_apply, val_main_v12_apply, val_main_cst_2_apply,
    val_main_v11_apply, val_main_v10_apply, val_main_v9_apply, val_main_cst_1_apply, val_main_v8_apply,
    val_main_v7_apply, val_main_v6_apply, val_main_v3_apply, val_main_v14_apply, logit_eq, sumExp_eq,
    rowLoss_def, lossOf_def]
  generalize labelLogit x0 x1 r = s
  generalize sumExp x0 r = z
  show Ideal.ofBits .f32 0x3E800000#32
      * ((Ideal.ofBits .f32 0x3F800000#32 - Ideal.div (Ideal.exp (- -s)) z)
        * (Ideal.ofBits .f32 0x3F800000#32 - Ideal.div (Ideal.exp (- -s)) z))
      * (-s + Ideal.log z) = _
  rw [neg_neg]

/-- The reference's result is the total of the rows' losses divided by `2²⁰`. -/
theorem ref_eq (x0 : (⟨S1048576x128, .f32⟩ : BufTy).Contents (Elt Ideal)) (x1 : (⟨S1048576x128, .i32⟩ : BufTy).Contents (Elt Ideal))
    (i : S_.Idx) :
    val_main_v18 (F := Ideal) x0 x1 i = Ideal.div (total x0 x1) (Ideal.ofBits .f32 0x49800000#32) := by
  rw [val_main_v18_apply, val_main_v17_apply, val_main_cst_4_apply, val_main_cst_3_apply]
  show Ideal.div (Ideal.ofBits .f32 0x00000000#32 + ∑ j, val_main_v16 (F := Ideal) x0 x1 j) (Ideal.ofBits .f32 0x49800000#32) = _
  rw [Ideal.ofBits_zero_f32, zero_add, sum_idx1, total_def]
  refine congrArg (fun T => Ideal.div T (Ideal.ofBits .f32 0x49800000#32)) ?_
  exact Finset.sum_congr rfl fun r _ => row_eq x0 x1 r

end Cert.Focal.Ref

end
-- ==== Proof.lean ====
/-
  The mean focal loss of `preds` f32[1048576, 128] against `labels` i32[1048576, 128]: a kernel that walks the rows
  in 256 blocks of 4096, adds each block's total of row losses into a one-word accumulator, and at the last block
  scales the accumulator by `2⁻²⁰`, against the reference that forms every row's loss, sums them all and divides by
  `2²⁰`.

  Over the extended reals both are `(∑ᵣ ¼ · (1 - exp sᵣ / zᵣ)² · (-sᵣ + log zᵣ)) · 2⁻²⁰` with `sᵣ = ∑ₖ xᵣₖ · lᵣₖ` and
  `zᵣ = ∑ₖ exp xᵣₖ` (Proof/FocalSpec.lean). The kernel's side: the payloads read at an index (Proof/FocalPayload.lean:
  a row's two lane sums, `0 - (0 - s) = s`, `0 - s = -s`, the block's column sum), the accumulator after each grid
  point by induction on the point (Proof/FocalAccum.lean), the 256 block totals as the one flat sum — a sum over
  consecutive blocks re-associated, which the extended reals allow without any finiteness (Proof/FocalBlocks.lean) —,
  and the result array and the scalar re-read of it (Proof/FocalResult.lean). The reference's side: its operations
  read at an index (Proof/FocalRef.lean: `0 + ∑ = ∑`, `-(-s) = s`). The two meet in one law: dividing by `2²⁰` is
  multiplying by `2⁻²⁰` on every extended real (Proof/FocalConsts.lean). The precondition is not used.
-/
import proofs.«137575_j64759516889772_1_alg».proof.Defs
import proofs.«137575_j64759516889772_1_alg».proof.Proof.Gen.Kernel
import proofs.«137575_j64759516889772_1_alg».proof.Proof.Gen.Kernel.Skeleton
import proofs.«137575_j64759516889772_1_alg».proof.Proof.Gen.Kernel.Launch
import proofs.«137575_j64759516889772_1_alg».proof.Proof.Gen.Kernel.Points
import proofs.«137575_j64759516889772_1_alg».proof.Proof.Gen.Kernel.Frame
import proofs.«137575_j64759516889772_1_alg».proof.Proof.Gen.KernelIdeal
import proofs.«137575_j64759516889772_1_alg».proof.Proof.Gen.KernelIdeal.Skeleton
import proofs.«137575_j64759516889772_1_alg».proof.Proof.Gen.KernelIdeal.Launch
import proofs.«137575_j64759516889772_1_alg».proof.Proof.Gen.KernelIdeal.Points
import proofs.«137575_j64759516889772_1_alg».proof.Proof.Gen.KernelIdeal.Frame
import proofs.«137575_j64759516889772_1_alg».proof.Proof.Gen.ReferenceIdeal
import proofs.«137575_j64759516889772_1_alg».proof.Proof.Gen.Pre_finite_inputs
import proofs.«137575_j64759516889772_1_alg».proof.Proof.Gen.ReferenceIdeal.Run
import proofs.«137575_j64759516889772_1_alg».proof.Proof.Gen.ReferenceIdeal.Read
import proofs.«137575_j64759516889772_1_alg».proof.Proof.FocalSpec
import proofs.«137575_j64759516889772_1_alg».proof.Proof.FocalConsts
import proofs.«137575_j64759516889772_1_alg».proof.Proof.FocalResult
import proofs.«137575_j64759516889772_1_alg».proof.Proof.FocalRef
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the mean loss of the argument arrays: the kernel's total scaled by `2⁻²⁰`, the reference's
    divided by `2²⁰`. -/
theorem algebraic : Cert.algebraic_KernelIdeal_ReferenceIdeal := by
  intro m ρ m' ρ' _ hagree
  refine ⟨fun c => (fun _ => Cert.Focal.meanLoss (Cert.Focal.Blocks.logits m c) (Cert.Focal.Blocks.labels m c)),
    Cert.Focal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2]
  funext i
  rw [Cert.Focal.Ref.ref_eq, Cert.Focal.Consts.div_two_pow_20]
  exact (Cert.Focal.meanLoss_def (Cert.Focal.Blocks.logits m c) (Cert.Focal.Blocks.labels m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
